-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x64 : Shape := ⟨2, ![4096, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S4096x64 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S4096x64 : Shape := ⟨2, ![4096, 64]⟩
abbrev S64 : Shape := ⟨1, ![64]⟩
abbrev S1x64 : Shape := ⟨2, ![1, 64]⟩
abbrev S32768x64 : Shape := ⟨2, ![32768, 64]⟩
abbrev S8x128 : Shape := ⟨2, ![8, 128]⟩
abbrev S1x1 : Shape := ⟨2, ![1, 1]⟩
abbrev S_ : Shape := ⟨0, ![]⟩
abbrev S1024x4096 : Shape := ⟨2, ![1024, 4096]⟩
abbrev S1024x64 : Shape := ⟨2, ![1024, 64]⟩
abbrev S1x1024x64 : Shape := ⟨3, ![1, 1024, 64]⟩
abbrev S1 : Shape := ⟨1, ![1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S1x64, .f32⟩
  | .hbm, ⟨4, _⟩ => ⟨S32768x64, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S4096x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S8x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0_0 : Ref sig .tc := ⟨.hbm, 4, rfl⟩
abbrev main_call0_v1_1 : Ref sig .tc := ⟨.hbm, 5, rfl⟩
abbrev main_call0_v2 : Ref sig .tc := ⟨.hbm, 6, rfl⟩
abbrev main_call0_v3 : Ref sig .tc := ⟨.hbm, 7, rfl⟩
abbrev main_call0_cst : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64_S1x64 : S64.ShapeCasts S1x64
  slices_S8x128_S1x1_0_0 : S8x128.Slices ![0, 0] S1x1
  shapeCasts_S1x1_S_ : S1x1.ShapeCasts S_
  inb_S1024x4096_S1024x4096_0_0 : ∀ a, (![0, 0] : Fin 2 → Nat) a + S1024x4096.size a ≤ S1024x4096.size a
  h_S1024x4096 : 0 < S1024x4096.numel
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  natLt_1_32 : 1 < 32
  shapeCasts_S1024x64_S1x1024x64 : S1024x64.ShapeCasts S1x1024x64
  reduces_S1x1024x64_S1 : S1x1024x64.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  shapeCasts_S8x128_S8x128 : S8x128.ShapeCasts S8x128
  dot_S1024x4096_S4096x64_S1024x64_1_0_0_1_n_n_wf : DotDims.WF S1024x4096 S4096x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S32768x4096.size a
  hwx0_0 : ∀ i : grid0.Coords, EltTy.bits .f32 = 32 ∨ (Rect.block (s := S32768x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S4096x64.size a
  hwx0_1 : ∀ i : grid0.Coords, EltTy.bits .f32 = 32 ∨ (Rect.block (s := S4096x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S8x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S4096x64 : Shape := ⟨2, ![4096, 64]⟩
abbrev S64 : Shape := ⟨1, ![64]⟩
abbrev S32768x64 : Shape := ⟨2, ![32768, 64]⟩
abbrev S1x64 : Shape := ⟨2, ![1, 64]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S32768x64, .f32⟩
  | .hbm, ⟨4, _⟩ => ⟨S1x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768x64, .f32⟩
  | .hbm, ⟨9, _⟩ => ⟨S32768x64, .f32⟩
  | .hbm, ⟨10, _⟩ => ⟨S_, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768x64, .f32⟩
  | .hbm, ⟨15, _⟩ => ⟨S32768x64, .i1⟩
  | .hbm, ⟨16, _⟩ => ⟨S32768x64, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S_, .f32⟩
  | .hbm, ⟨21, _⟩ => ⟨S_, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_c : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  natLt_1_32 : 1 < 32
  reducesTo_S32768x64_S_d0_1 : S32768x64.ReducesTo [0, 1] S_
  h_S_ : 0 < S_.numel
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.KernelPieces.lean ====
/-
  What one run of the kernel body leaves in its two output blocks.

  The body loads a block of 1024 token rows, the whole weight matrix and the bias row, and stores two things:
  into the logits block the rectified affine form of the three (its first payload), and into the 8×128 counter
  block the counter's previous contents plus, in every entry, the number of positive logits of the block (its
  third payload). At the first grid point the counter is first overwritten with zeros (the second payload), so
  there the previous contents are the zero block; at every later point they are what the point before left.
-/
import proofs.«135159_g15109694947980_cont_week2b_1489_39_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- At the first point the logits block holds the rectified affine form of the loaded blocks. -/
theorem logits_first (c : Dev nD) (i : grid0.Coords) (arg1 : Memref sig .tc .vmem S1024x4096 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S8x128 .f32) (harg5 : arg5.IsWhole) (hc0 : cond0_0 i) (x0 : Vec F S1024x4096 .f32) (x1 : Vec F S4096x64 .f32) (x2 : Vec F S1x64 .f32) :
    out0_A_3 c i arg1 harg1 arg2 harg2 arg3 harg3 arg4 harg4 arg5 harg5 hc0 x0 x1 x2 = k0_pay1 x0 x1 x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  rw [View.canon_unit_zero hz]
  simp only [View.readAt_eq_ld, harg1.read_unread, harg2.read_unread, harg3.read_unread, View.ld_unit_zero (S := S1024x4096) hz, View.ld_unit_zero (S := S4096x64) hz, View.ld_unit_zero (S := S1x64) hz]

/-- At every later point too; the counter's contents do not enter. -/
theorem logits_later (c : Dev nD) (i : grid0.Coords) (arg1 : Memref sig .tc .vmem S1024x4096 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S8x128 .f32) (harg5 : arg5.IsWhole) (hc0 : ¬cond0_0 i) (x0 : Vec F S1024x4096 .f32) (x1 : Vec F S4096x64 .f32) (x2 : Vec F S1x64 .f32) (xo4 : Vec F S8x128 .f32) :
    out0_B_3 c i arg1 harg1 arg2 harg2 arg3 harg3 arg4 harg4 arg5 harg5 hc0 x0 x1 x2 xo4 = k0_pay1 x0 x1 x2 := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  rw [View.canon_unit_zero hz]
  simp only [View.readAt_eq_ld, harg1.read_unread, harg2.read_unread, harg3.read_unread, View.ld_unit_zero (S := S1024x4096) hz, View.ld_unit_zero (S := S4096x64) hz, View.ld_unit_zero (S := S1x64) hz]

/-- At a later point the counter block holds its previous contents plus the block's count. -/
theorem counter_later (c : Dev nD) (i : grid0.Coords) (arg1 : Memref sig .tc .vmem S1024x4096 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S8x128 .f32) (harg5 : arg5.IsWhole) (hc0 : ¬cond0_0 i) (x0 : Vec F S1024x4096 .f32) (x1 : Vec F S4096x64 .f32) (x2 : Vec F S1x64 .f32) (xo4 : Vec F S8x128 .f32) :
    out0_B_4 c i arg1 harg1 arg2 harg2 arg3 harg3 arg4 harg4 arg5 harg5 hc0 x0 x1 x2 xo4 = k0_pay3 x0 x1 x2 xo4 := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  rw [View.canon_unit_zero hz]
  simp only [View.readAt_eq_ld, harg1.read_unread, harg2.read_unread, harg3.read_unread, View.ld_unit_zero (S := S1024x4096) hz, View.ld_unit_zero (S := S4096x64) hz, View.ld_unit_zero (S := S1x64) hz, harg5.read_unread, View.ld_unit_zero (S := S8x128) hz]

/-- At the first point the counter is zeroed first, so it holds the zero block plus the block's count. -/
theorem counter_first (c : Dev nD) (i : grid0.Coords) (arg1 : Memref sig .tc .vmem S1024x4096 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S8x128 .f32) (harg5 : arg5.IsWhole) (hc0 : cond0_0 i) (x0 : Vec F S1024x4096 .f32) (x1 : Vec F S4096x64 .f32) (x2 : Vec F S1x64 .f32) :
    out0_A_4 c i arg1 harg1 arg2 harg2 arg3 harg3 arg4 harg4 arg5 harg5 hc0 x0 x1 x2 = k0_pay3 x0 x1 x2 (k0_pay2 (F := F)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S8x128) hz, View.readCov_unit_zero (S := S8x128) _ hz]
  simp only [View.readAt_eq_ld, harg1.read_unread, harg2.read_unread, harg3.read_unread, View.ld_unit_zero (S := S1024x4096) hz, View.ld_unit_zero (S := S4096x64) hz, View.ld_unit_zero (S := S1x64) hz]

end Cert.KernelIdeal.Body

end
-- ==== Proof.LibCountWords.lean ====
/-
  Counting with 0/1 flags: the two machine forms of a count read back as the natural number.

  A comparison yields a one-bit flag. Widened to 32 bits it is the word of the natural number 0 or 1; read as a
  signed integer and then as an extended real it is the number 0 or 1. Adding such words from zero in 32-bit
  wrapping arithmetic gives the word of the sum of the numbers, and a natural number below 2³¹, as a word, reads
  back as itself when read signed — so a count that cannot reach 2³¹ is recovered exactly from its integer sum.
  On the other side, a sum of natural numbers taken in the extended reals is the extended real of their sum.
-/
import Idealize.ShloMosaic.PureOps.Reduce
import Mathlib

noncomputable section

open Idealize.ShloMosaic
open scoped BigOperators

namespace Cert.CountWords

/-- A one-bit flag widened to 32 bits is the natural number 0 or 1 as a 32-bit word. -/
theorem flag_word (p : Prop) [Decidable p] :
    (BitVec.ofBool (decide p)).setWidth 32 = ((if p then 1 else 0 : ℕ) : BitVec 32) := by
  by_cases h : p
  · rw [decide_eq_true h, if_pos h]; decide
  · rw [decide_eq_false h, if_neg h]; decide

/-- Read as a signed integer and then as an extended real it is the number 0 or 1. -/
theorem flag_real (p : Prop) [Decidable p] :
    ((((BitVec.ofBool (decide p)).setWidth 32).toInt : ℝ) : EReal) = ((if p then 1 else 0 : ℕ) : EReal) := by
  by_cases h : p
  · rw [decide_eq_true h, if_pos h]
    have : ((BitVec.ofBool true).setWidth 32).toInt = 1 := by decide
    rw [this]; simp
  · rw [decide_eq_false h, if_neg h]
    have : ((BitVec.ofBool false).setWidth 32).toInt = 0 := by decide
    rw [this]; simp

/-- Folding 32-bit wrapping addition from zero over words that are natural numbers gives the sum of the
    numbers as a word. -/
theorem fold_addi_natCast {ι : Type*} (s : Finset ι) (n : ι → ℕ) :
    s.fold IntOp.addi (0#32) (fun i => ((n i : ℕ) : BitVec 32)) = ((∑ i ∈ s, n i : ℕ) : BitVec 32) := by
  classical
  induction s using Finset.induction_on with
  | empty => simp
  | insert a s ha ih =>
    rw [Finset.fold_insert ha, ih, Finset.sum_insert ha, Nat.cast_add]
    rfl

/-- A natural number below 2³¹ as a 32-bit word, read as a signed integer, is the number. -/
theorem toInt_natCast_of_lt (N : ℕ) (h : N < 2147483648) : ((N : ℕ) : BitVec 32).toInt = (N : ℤ) := by
  have e : ((N : ℕ) : BitVec 32).toNat = N := by
    show (BitVec.ofNat 32 N).toNat = N
    rw [BitVec.toNat_ofNat]; omega
  rw [BitVec.toInt_eq_toNat_of_lt (by rw [e]; omega), e]

/-- A sum of natural numbers as extended reals is the extended real of the sum. -/
theorem sum_natCast_ereal {ι : Type*} (s : Finset ι) (n : ι → ℕ) :
    ∑ i ∈ s, ((n i : ℕ) : EReal) = ((∑ i ∈ s, n i : ℕ) : EReal) := (Nat.cast_sum s n).symm

end Cert.CountWords

end
-- ==== Proof.ActiveCount.lean ====
/-
  The router's logits and the count of the active ones, as mathematics over the argument arrays.

  For a token matrix x [32768, 4096], a weight matrix W [4096, 64] and a bias b [64] over the extended reals,
  the logit of token r and expert c is the rectified affine form

      logit r c = max (∑ₖ x(r,k) · W(k,c) + b(c), 0),

  a logit is active when it is positive, and the activation density is the number of active logits divided
  by 32768 · 64 = 2²¹. This file states the logit and the count (a natural number), shows that the count over
  all 32768 rows is the sum over the 32 blocks of 1024 consecutive rows of each block's count, and bounds the
  count by 2²¹ (far below 2³¹, so that its 32-bit integer form does not wrap).
-/
import proofs.«135159_g15109694947980_cont_week2b_1489_39_alg».proof.Proof.LibCountWords
import Idealize.ShloMosaic.Lib.ValueIdx
import Mathlib

noncomputable section

open Idealize.ShloMosaic Idealize.ShloMosaic.ValueIdx
open scoped BigOperators

namespace Cert.Router

/-! ## Rows by blocks of 1024 -/

/-- Row `p` of row block `t`: row `1024·t + p` of the token matrix. -/
def blockRow (t : Fin 32) (p : Fin 1024) : Fin 32768 :=
  ⟨1024 * t.val + p.val, by have := t.isLt; have := p.isLt; omega⟩

theorem blockRow_val (t : Fin 32) (p : Fin 1024) : (blockRow t p).val = 1024 * t.val + p.val := rfl

/-- A sum over the 32768 rows is the sum over the 32 blocks of the sum over each block's 1024 rows. -/
theorem sum_rows_by_block {M : Type*} [AddCommMonoid M] (g : Fin 32768 → M) :
    ∑ r, g r = ∑ t : Fin 32, ∑ p : Fin 1024, g (blockRow t p) := by
  rw [← Equiv.sum_comp (finProdFinEquiv (m := 32) (n := 1024)) g, Fintype.sum_prod_type]
  refine Finset.sum_congr rfl fun t _ => Finset.sum_congr rfl fun p _ => congrArg g (Fin.ext ?_)
  show p.val + 1024 * t.val = 1024 * t.val + p.val
  omega

/-! ## The logit and the count -/

section Spec

variable (x : (⟨2, ![32768, 4096]⟩ : Shape).Idx → EReal) (W : (⟨2, ![4096, 64]⟩ : Shape).Idx → EReal)
  (b : (⟨1, ![64]⟩ : Shape).Idx → EReal)

/-- The logit of token `r` and expert `c`: max (∑ₖ x(r,k) · W(k,c) + b(c), 0). -/
def logit (r : Fin 32768) (c : Fin 64) : EReal :=
  max ((∑ k : Fin 4096, x (ix2 r k) * W (ix2 k c)) + b (ix1 c)) 0

/-- The logits as an array. -/
def logits : (⟨2, ![32768, 64]⟩ : Shape).Idx → EReal := fun i => logit x W b (i 0) (i 1)

theorem logit_nonneg (r : Fin 32768) (c : Fin 64) : 0 ≤ logit x W b r c := le_max_right _ _

/-- 1 when the logit is positive, else 0. -/
def active (r : Fin 32768) (c : Fin 64) : ℕ := if 0 < logit x W b r c then 1 else 0

/-- A logit is never negative, so it is positive exactly when it is not zero. -/
theorem active_eq_ne (r : Fin 32768) (c : Fin 64) :
    active x W b r c = if logit x W b r c ≠ 0 then 1 else 0 := by
  unfold active
  by_cases h : 0 < logit x W b r c
  · rw [if_pos h, if_pos (ne_of_gt h)]
  · rw [if_neg h, if_neg (fun hne => h (lt_of_le_of_ne (logit_nonneg x W b r c) (Ne.symm hne)))]

theorem active_le_one (r : Fin 32768) (c : Fin 64) : active x W b r c ≤ 1 := by
  unfold active; split <;> omega

/-- The number of active logits among the 1024 rows of block `t`. -/
def blockCount (t : Fin 32) : ℕ := ∑ p : Fin 1024, ∑ c : Fin 64, active x W b (blockRow t p) c

/-- The number of active logits. -/
def totalCount : ℕ := ∑ r : Fin 32768, ∑ c : Fin 64, active x W b r c

/-- The count is the sum of the 32 blocks' counts. -/
theorem totalCount_eq_blocks : totalCount x W b = ∑ t : Fin 32, blockCount x W b t :=
  sum_rows_by_block fun r => ∑ c : Fin 64, active x W b r c

/-- There are 2²¹ logits, so at most 2²¹ are active. -/
theorem totalCount_le : totalCount x W b ≤ 2097152 := by
  unfold totalCount
  calc ∑ r : Fin 32768, ∑ c : Fin 64, active x W b r c
      ≤ ∑ _r : Fin 32768, ∑ _c : Fin 64, 1 :=
        Finset.sum_le_sum fun r _ => Finset.sum_le_sum fun c _ => active_le_one x W b r c
    _ = 2097152 := by simp

/-- The blocks' counts accumulated in order: after block `n` the sum of the counts of blocks 0 … n. -/
def runningCount : (n : ℕ) → n < 32 → ℕ
  | 0, h => blockCount x W b ⟨0, h⟩
  | n + 1, h => runningCount n (Nat.lt_of_succ_lt h) + blockCount x W b ⟨n + 1, h⟩

theorem runningCount_eq_sum : ∀ (n : ℕ) (h : n < 32),
    runningCount x W b n h = ∑ t : Fin (n + 1), blockCount x W b ⟨t.val, by have := t.isLt; omega⟩
  | 0, h => by simp [runningCount]
  | n + 1, h => by
    rw [runningCount, runningCount_eq_sum n, Fin.sum_univ_castSucc (n := n + 1)]
    rfl

/-- After the last block the running count is the count. -/
theorem runningCount_last : runningCount x W b 31 (by omega) = totalCount x W b := by
  rw [runningCount_eq_sum, totalCount_eq_blocks]

end Spec

end Cert.Router

end
-- ==== Proof.KernelPayload.lean ====
/-
  The body's two payloads read at an index, over the extended reals.

  For a block X of 1024 token rows, the weight matrix W and the bias row B, the logits payload at (p, q) is
  max (∑ₖ X(p,k) · W(k,q) + B(0,q), 0): the matrix unit's product into a zero accumulator is the plain sum over the
  contracted axis, the bias row is stretched over the rows, and the rectifier is a maximum with zero. The counter
  payload at any entry is the previous entry plus the number of positive logits of the block: the comparison
  gives a one-bit flag, widened to 32 bits and read as the real number 0 or 1, and the sum of those 1024 · 64
  numbers over the two block axes is the count.
-/
import proofs.«135159_g15109694947980_cont_week2b_1489_39_alg».proof.Proof.Gen.KernelIdeal.Skeleton
import proofs.«135159_g15109694947980_cont_week2b_1489_39_alg».proof.Proof.ActiveCount
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-! ## The product of a row block with the weight matrix -/

theorem lhs_0 (i : S1024x64.Idx) (q : dot_S1024x4096_S4096x64_S1024x64_1_0_0_1_n_n.contr.Idx) : (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs_1 (i : S1024x64.Idx) (q : dot_S1024x4096_S4096x64_S1024x64_1_0_0_1_n_n.contr.Idx) : (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs_0 (i : S1024x64.Idx) (q : dot_S1024x4096_S4096x64_S1024x64_1_0_0_1_n_n.contr.Idx) : (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs_1 (i : S1024x64.Idx) (q : dot_S1024x4096_S4096x64_S1024x64_1_0_0_1_n_n.contr.Idx) : (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- The product into the zero accumulator at (p, q) is ∑ₖ X(p,k) · W(k,q). -/
theorem product_at (x0 : FVec Ideal S1024x4096 .f32) (x1 : FVec Ideal S4096x64 .f32) (p : Fin 1024) (q : Fin 64) :
    matmul (F := Ideal) dot_S1024x4096_S4096x64_S1024x64_1_0_0_1_n_n none x0 x1 (constant S1024x64 .f32 0x00000000#32) (ix2 p q)
      = ∑ k : Fin 4096, x0 (ix2 p k) * x1 (ix2 k q) := by
  simp only [matmul]
  rw [Ideal.matmul_constant_zero_apply, ← Equiv.sum_comp (contrEquiv1 dot_S1024x4096_S4096x64_S1024x64_1_0_0_1_n_n 4096 rfl rfl).symm]
  refine Finset.sum_congr rfl fun k _ => ?_
  have hk := contrEquiv1_symm_val dot_S1024x4096_S4096x64_S1024x64_1_0_0_1_n_n 4096 rfl rfl k
  have el : dot_S1024x4096_S4096x64_S1024x64_1_0_0_1_n_n.lhsIdx (ix2 p q) ((contrEquiv1 dot_S1024x4096_S4096x64_S1024x64_1_0_0_1_n_n 4096 rfl rfl).symm k) = ix2 p k := funext fun a => Fin.ext (by
    match a with
    | ⟨0, _⟩ => exact lhs_0 _ _
    | ⟨1, _⟩ => exact (lhs_1 _ _).trans hk)
  have er : dot_S1024x4096_S4096x64_S1024x64_1_0_0_1_n_n.rhsIdx (ix2 p q) ((contrEquiv1 dot_S1024x4096_S4096x64_S1024x64_1_0_0_1_n_n 4096 rfl rfl).symm k) = ix2 k q := funext fun a => Fin.ext (by
    match a with
    | ⟨0, _⟩ => exact (rhs_0 _ _).trans hk
    | ⟨1, _⟩ => exact rhs_1 _ _)
  rw [el, er]

/-- The bias row stretched over the 1024 rows reads the row at column q. -/
theorem bias_at (x2 : FVec Ideal S1x64 .f32) (p : Fin 1024) (q : Fin 64) :
    broadcastTo S1024x64 (shapeCast S1x64 x2 shapeCasts_S1x64_S1x64) broadcasts_S1x64_S1024x64 (ix2 p q) = x2 (ix2 0 q) := by
  rw [shapeCast_self]
  exact broadcastTo_apply x2 broadcasts_S1x64_S1024x64 (ix2 p q) (ix2 0 q) (fun a => by
    match a with
    | ⟨0, _⟩ => show (0 : ℕ) = if (1 : ℕ) = 1 then 0 else _; rw [if_pos rfl]
    | ⟨1, _⟩ => show q.val = if (64 : ℕ) = 1 then 0 else _; rw [if_neg (by decide)]; rfl)

/-- The logits payload at (p, q): max (∑ₖ X(p,k) · W(k,q) + B(0,q), 0). -/
theorem logits_at (x0 : FVec Ideal S1024x4096 .f32) (x1 : FVec Ideal S4096x64 .f32) (x2 : FVec Ideal S1x64 .f32) (p : Fin 1024) (q : Fin 64) :
    k0_pay1 (F := Ideal) x0 x1 x2 (ix2 p q) = max ((∑ k : Fin 4096, x0 (ix2 p k) * x1 (ix2 k q)) + x2 (ix2 0 q)) 0 := by
  unfold k0_pay1
  exact congrArg₂ max (congrArg₂ (· + ·) (product_at x0 x1 p q) (bias_at x2 p q)) Ideal.ofBits_zero_f32

/-! ## The count of a block's positive entries -/

/-- The number of positive entries of a 1024 × 64 block. -/
def posCount (L : S1024x64.Idx → EReal) : ℕ := ∑ p : Fin 1024, ∑ q : Fin 64, if 0 < L (ix2 p q) then 1 else 0

/-- The flags of a block — 1.0 where the entry is positive, else 0.0 —, read along the row-major relabelling of a
    1 × 1024 × 64 slab and summed over all of it, are the block's count. -/
theorem flags_sum (L : FVec Ideal S1024x64 .f32) :
    ∑ i : S1x1024x64.Idx,
        (sitofp .f32 (extui 32 (cmpf .ogt L (broadcast S1024x64 (Scalar.ofBits .f32 0x00000000#32))) natLt_1_32) : FVec Ideal S1024x64 .f32)
          (Shape.reshapeEquiv shapeCasts_S1024x64_S1x1024x64 i)
      = ((posCount L : ℕ) : EReal) := by
  rw [Equiv.sum_comp (Shape.reshapeEquiv shapeCasts_S1024x64_S1x1024x64) _, sum_idx2]
  unfold posCount
  rw [Nat.cast_sum]
  refine Finset.sum_congr rfl fun p _ => ?_
  rw [Nat.cast_sum]
  refine Finset.sum_congr rfl fun q _ => ?_
  show ((((BitVec.ofBool (decide (Ideal.ofBits .f32 0x00000000#32 < L (ix2 p q)))).setWidth 32).toInt : ℝ) : EReal) = _
  simp only [Ideal.ofBits_zero_f32]
  exact Cert.CountWords.flag_real _

section Scalar
variable {F : FTy → Type} [FloatOps F]

/-- The scalar the body adds to every counter entry: the block's flags summed over both axes. -/
def blockScalar (L : FVec F S1024x64 .f32) : F .f32 :=
  extractAt ![0, 0, 0]
    (shapeCast S1x1x1
      (multiReduction .add [1, 2] S1
        (shapeCast S1x1024x64
          (sitofp .f32 (extui 32 (cmpf .ogt L (broadcast S1024x64 (Scalar.ofBits .f32 0x00000000#32))) natLt_1_32) : FVec F S1024x64 .f32)
          shapeCasts_S1024x64_S1x1024x64)
        0x00000000#32 reduces_S1x1024x64_S1 (.inl rfl) rfl)
      shapeCasts_S1_S1x1x1)
    inpos_S1x1x1_p0_0_0

/-- The counter payload is the previous block plus that scalar in every entry. -/
theorem counter_shape (x0 : Vec F S1024x4096 .f32) (x1 : Vec F S4096x64 .f32) (x2 : Vec F S1x64 .f32) (xo : Vec F S8x128 .f32) :
    k0_pay3 x0 x1 x2 xo
      = addf (shapeCast S8x128 xo shapeCasts_S8x128_S8x128) (broadcast S8x128 (blockScalar (k0_pay1 x0 x1 x2))) := rfl

end Scalar

/-- Over the extended reals the scalar is the block's count. -/
theorem blockScalar_eq (L : FVec Ideal S1024x64 .f32) : blockScalar (F := Ideal) L = ((posCount L : ℕ) : EReal) := by
  unfold blockScalar extractAt
  simp only [shapeCast]
  refine (Ideal.multiReduction_add_total (φ := .f32) _ 0x00000000#32 reduces_S1x1024x64_S1 (fun b => ?_) (.inl rfl) rfl _).trans ?_
  · match b with
    | ⟨0, _⟩ => rfl
  · exact flags_sum L

/-- The counter payload at any entry: the previous entry plus the block's count. -/
theorem counter_at (x0 : FVec Ideal S1024x4096 .f32) (x1 : FVec Ideal S4096x64 .f32) (x2 : FVec Ideal S1x64 .f32)
    (xo : FVec Ideal S8x128 .f32) (y : S8x128.Idx) :
    k0_pay3 (F := Ideal) x0 x1 x2 xo y = xo y + ((posCount (k0_pay1 (F := Ideal) x0 x1 x2) : ℕ) : EReal) := by
  rw [counter_shape, addf_apply, broadcast_apply, shapeCast_self, blockScalar_eq]

end Cert.KernelIdeal.Payload

end
-- ==== Proof.KernelBlocks.lean ====
/-
  The kernel's input blocks, read off the argument arrays.

  At grid point t the tokens window holds rows 1024·t … 1024·t + 1023 of the token matrix, the weights window
  the whole weight matrix, and the bias window the bias laid out as one row — the host reshapes the bias vector
  [64] to [1, 64] before the call, so entry (0, q) of the row is entry q of the vector. No host operation
  before the call writes the token or the weight matrix.
-/
import proofs.«135159_g15109694947980_cont_week2b_1489_39_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block indices of the five windows at every grid point: the tokens and logits windows move down one block
    per point, the other three stay at the origin. -/
theorem tokens_index : ∀ t : Fin cfg0.N, win0_0.index t 0 = t.val ∧ win0_0.index t 1 = 0 :=
  (by decide +kernel : ∀ t : Fin grid0.N, win0_0.index t 0 = t.val ∧ win0_0.index t 1 = 0)
theorem weights_index : ∀ t : Fin cfg0.N, win0_1.index t 0 = 0 ∧ win0_1.index t 1 = 0 :=
  (by decide +kernel : ∀ t : Fin grid0.N, win0_1.index t 0 = 0 ∧ win0_1.index t 1 = 0)
theorem bias_index : ∀ t : Fin cfg0.N, win0_2.index t 0 = 0 ∧ win0_2.index t 1 = 0 :=
  (by decide +kernel : ∀ t : Fin grid0.N, win0_2.index t 0 = 0 ∧ win0_2.index t 1 = 0)
theorem logits_index : ∀ t : Fin cfg0.N, win0_3.index t 0 = t.val ∧ win0_3.index t 1 = 0 :=
  (by decide +kernel : ∀ t : Fin grid0.N, win0_3.index t 0 = t.val ∧ win0_3.index t 1 = 0)
theorem counter_index : ∀ t : Fin cfg0.N, win0_4.index t 0 = 0 ∧ win0_4.index t 1 = 0 :=
  (by decide +kernel : ∀ t : Fin grid0.N, win0_4.index t 0 = 0 ∧ win0_4.index t 1 = 0)

/-- The tokens block at point t, entry j, is the token matrix at row 1024·t + j₀, column j₁. -/
theorem tokens_at (c : Dev nD) (t : Fin cfg0.N) (j : S1024x4096.Idx) (i : S32768x4096.Idx)
    (h0 : (i 0).val = 1024 * t.val + (j 0).val) (h1 : (i 1).val = (j 1).val) :
    (iblk m c 0 t : Vec F S1024x4096 .f32) j = m ((c : Thread nD τ).loc main_arg0) i := by
  have hi := tokens_index t
  rw [← V_main_arg0 m c]
  unfold iblk
  rw [View.read_apply]
  show V m c main_arg0 (((cfg0.win 0).blk t).view.emb j) = V m c main_arg0 i
  refine congrArg (V m c main_arg0) (funext fun a => Fin.ext ?_)
  match a with
  | ⟨0, _⟩ => show win0_0.index t 0 * 1024 + 1 * (j 0).val = (i 0).val; rw [hi.1, h0]; omega
  | ⟨1, _⟩ => show win0_0.index t 1 * 4096 + 1 * (j 1).val = (i 1).val; rw [hi.2, h1]; omega

/-- The weights block at every point is the weight matrix. -/
theorem weights_at (c : Dev nD) (t : Fin cfg0.N) (j : S4096x64.Idx) :
    (iblk m c 1 t : Vec F S4096x64 .f32) j = m ((c : Thread nD τ).loc main_arg1) j := by
  have hi := weights_index t
  rw [← V_main_arg1 m c]
  unfold iblk
  rw [View.read_apply]
  show V m c main_arg1 (((cfg0.win 1).blk t).view.emb j) = V m c main_arg1 j
  refine congrArg (V m c main_arg1) (funext fun a => Fin.ext ?_)
  match a with
  | ⟨0, _⟩ => show win0_1.index t 0 * 4096 + 1 * (j 0).val = (j 0).val; rw [hi.1]; omega
  | ⟨1, _⟩ => show win0_1.index t 1 * 64 + 1 * (j 1).val = (j 1).val; rw [hi.2]; omega

/-- The array the bias window stages is the bias vector reshaped to one row. -/
theorem bias_row (c : Dev nD) :
    (V m c main_call0_v0 : S1x64.Idx → Elt F .f32) = shapeCast S1x64 (m ((c : Thread nD τ).loc main_arg2)) shapeCasts_S64_S1x64 := by
  show StableHlo.after hostOps0 (fun b => m (c, b)) (Proc.devRef .tc main_call0_v0) = _
  after_results
  rfl

/-- The bias block at every point, entry (0, q), is entry q of the bias vector. -/
theorem bias_at (c : Dev nD) (t : Fin cfg0.N) (q : Fin 64) :
    (iblk m c 2 t : Vec F S1x64 .f32) (ix2 0 q) = m ((c : Thread nD τ).loc main_arg2) (ix1 q) := by
  have hi := bias_index t
  unfold iblk
  rw [View.read_apply]
  show V m c main_call0_v0 (((cfg0.win 2).blk t).view.emb (ix2 0 q)) = _
  have e : (((cfg0.win 2).blk t).view.emb (ix2 0 q) : S1x64.Idx) = ix2 0 q := funext fun a => Fin.ext (by
    match a with
    | ⟨0, _⟩ => show win0_2.index t 0 * 1 + 1 * 0 = 0; rw [hi.1]
    | ⟨1, _⟩ => show win0_2.index t 1 * 64 + 1 * q.val = q.val; rw [hi.2]; omega)
  rw [e, bias_row m c]
  exact shapeCast_apply _ shapeCasts_S64_S1x64 (ix2 0 q) (ix1 q) (by
    rw [Shape.rowMajor_val_one, Shape.rowMajor_val_two]
    show q.val = 0 * 64 + q.val
    omega)

end Cert.KernelIdeal.Blocks

end
-- ==== Proof.KernelAcc.lean ====
/-
  What the kernel's two output buffers hold after each grid point, over the extended reals.

  Write x, W, b for the three argument arrays. At point t the logits buffer holds the logits of rows
  1024·t … 1024·t + 1023 — entry (p, q) is logit (1024·t + p) q —, and every entry of the counter buffer holds the
  number of active logits among the rows of blocks 0 … t: the first point starts from zero and adds its block's
  count, every later point adds its block's count to what the point before left. By induction on the point.
-/
import proofs.«135159_g15109694947980_cont_week2b_1489_39_alg».proof.Proof.KernelPieces
import proofs.«135159_g15109694947980_cont_week2b_1489_39_alg».proof.Proof.KernelPayload
import proofs.«135159_g15109694947980_cont_week2b_1489_39_alg».proof.Proof.KernelBlocks

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Router

variable (m : (ℓ : Loc nD τ sig) → Buf (Elt Ideal) ℓ)

/-- The three argument arrays on core c. -/
abbrev xs (c : Dev nD) : S32768x4096.Idx → EReal := m ((c : Thread nD τ).loc main_arg0)
abbrev ws (c : Dev nD) : S4096x64.Idx → EReal := m ((c : Thread nD τ).loc main_arg1)
abbrev bs (c : Dev nD) : S64.Idx → EReal := m ((c : Thread nD τ).loc main_arg2)

theorem N_eq : cfg0.N = 32 := N_0

/-- A grid point as a block number. -/
def blk (t : Fin cfg0.N) : Fin 32 := ⟨t.val, lt_of_lt_of_eq t.isLt N_eq⟩

/-- The logits payload of the blocks the windows hold at point t. -/
abbrev blockLogits (c : Dev nD) (t : Fin cfg0.N) : FVec Ideal S1024x64 .f32 :=
  k0_pay1 (F := Ideal) (iblk m c 0 t) (iblk m c 1 t) (iblk m c 2 t)

/-- Entry (p, q) of the logits payload at point t is the logit of row 1024·t + p and expert q. -/
theorem blockLogits_at (c : Dev nD) (t : Fin cfg0.N) (p : Fin 1024) (q : Fin 64) :
    blockLogits m c t (ix2 p q) = logit (xs m c) (ws m c) (bs m c) (blockRow (blk t) p) q := by
  unfold blockLogits
  rw [Payload.logits_at]
  unfold logit
  have e0 : ∀ k : Fin 4096, (iblk m c 0 t : Vec Ideal S1024x4096 .f32) (ix2 p k) = xs m c (ix2 (blockRow (blk t) p) k) :=
    fun k => Blocks.tokens_at m c t (ix2 p k) (ix2 (blockRow (blk t) p) k) rfl rfl
  have e1 : ∀ k : Fin 4096, (iblk m c 1 t : Vec Ideal S4096x64 .f32) (ix2 k q) = ws m c (ix2 k q) :=
    fun k => Blocks.weights_at m c t (ix2 k q)
  have e2 : (iblk m c 2 t : Vec Ideal S1x64 .f32) (ix2 0 q) = bs m c (ix1 q) := Blocks.bias_at m c t q
  rw [e2]
  refine congrArg (fun s => max (s + bs m c (ix1 q)) 0) (Finset.sum_congr rfl fun k _ => ?_)
  rw [e0 k, e1 k]

/-- So the number of positive entries of the payload is the block's count of active logits. -/
theorem posCount_block (c : Dev nD) (t : Fin cfg0.N) :
    Payload.posCount (blockLogits m c t) = blockCount (xs m c) (ws m c) (bs m c) (blk t) := by
  unfold Payload.posCount blockCount active
  refine Finset.sum_congr rfl fun p _ => Finset.sum_congr rfl fun q _ => ?_
  rw [blockLogits_at]

/-- The first point: the logits of block 0, and the counter at zero plus block 0's count. -/
theorem outs_first (c : Dev nD) (t : Fin cfg0.N) (h0 : t.val % 32 = 0) :
    outsAt0 m c t.val t.isLt
      = (blockLogits m c t, fun _ => (0 : EReal) + ((Payload.posCount (blockLogits m c t) : ℕ) : EReal)) := by
  rw [outsAt0_A m c t h0,
    Body.logits_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
    Body.counter_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)]
  refine congrArg (Prod.mk (blockLogits m c t)) (funext fun y => ?_)
  refine (Payload.counter_at (iblk m c 0 t) (iblk m c 1 t) (iblk m c 2 t) (k0_pay2 (F := Ideal)) y).trans ?_
  exact congrArg (· + ((Payload.posCount (blockLogits m c t) : ℕ) : EReal)) Ideal.ofBits_zero_f32

/-- A later point: the logits of its block, and the counter the point before left plus its block's count. -/
theorem outs_later (c : Dev nD) (t : Fin cfg0.N) (h0 : ¬t.val % 32 = 0) :
    outsAt0 m c t.val t.isLt
      = (blockLogits m c t, fun y => (outsAt0 m c (t.val - 1) (Nat.lt_of_le_of_lt (Nat.sub_le _ _) t.isLt)).2 y
            + ((Payload.posCount (blockLogits m c t) : ℕ) : EReal)) := by
  rw [outsAt0_B m c t h0,
    Body.logits_later (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).2,
    Body.counter_later (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).2]
  refine congrArg (Prod.mk (blockLogits m c t)) (funext fun y => ?_)
  exact Payload.counter_at (iblk m c 0 t) (iblk m c 1 t) (iblk m c 2 t) _ y

/-- After point n the logits buffer holds block n's logits and every counter entry the running count. -/
theorem outsAt_eq (c : Dev nD) : ∀ (n : ℕ) (h : n < cfg0.N),
    outsAt0 m c n h = (blockLogits m c ⟨n, h⟩,
      fun _ => ((runningCount (xs m c) (ws m c) (bs m c) n (lt_of_lt_of_eq h N_eq) : ℕ) : EReal))
  | 0, h => by
    rw [outs_first m c ⟨0, h⟩ rfl]
    refine Prod.ext rfl (funext fun _ => ?_)
    show (0 : EReal) + _ = _
    rw [zero_add, posCount_block]
    rfl
  | n + 1, h => by
    have hB : ¬(⟨n + 1, h⟩ : Fin cfg0.N).val % 32 = 0 := by
      have := lt_of_lt_of_eq h N_eq
      show ¬(n + 1) % 32 = 0
      omega
    rw [outs_later m c ⟨n + 1, h⟩ hB]
    refine Prod.ext rfl (funext fun y => ?_)
    show (outsAt0 m c n _).2 y + _ = _
    rw [outsAt_eq c n (Nat.lt_of_succ_lt h), posCount_block]
    show ((runningCount _ _ _ n _ : ℕ) : EReal) + ((blockCount _ _ _ _ : ℕ) : EReal) = _
    rw [← Nat.cast_add]
    rfl

end Cert.KernelIdeal.Acc

end
-- ==== Proof.KernelResults.lean ====
/-
  The kernel's two results, over the extended reals.

  Every row of the logits array lies in exactly one block of 1024 rows, written back at its own grid point, so the
  array ends holding the logits of all 32768 rows. The counter array is one block, written back after the last
  point only, when every entry holds the count of all active logits. After the call the host takes entry (0, 0) of
  the counter, as a scalar, and divides it by 2²¹: the activation density.
-/
import proofs.«135159_g15109694947980_cont_week2b_1489_39_alg».proof.Proof.KernelAcc

noncomputable section

open Idealize.ShloMosaic Idealize.ShloMosaic.TcCoe Idealize.SL.Sem Idealize.ShloMosaic.ValueIdx
open Idealize.ShloMosaic.Pipeline (Dat)

namespace Cert.KernelIdeal.Results

open Cert.KernelIdeal Cert.KernelIdeal.Gen Cert.Router Cert.KernelIdeal.Acc

variable (m : (ℓ : Loc nD τ sig) → Buf (Elt Ideal) ℓ) (ρ : Dev nD → PrngReg)

/-- The logits of all rows, as an array. -/
abbrev logitsArr (c : Dev nD) : S32768x64.Idx → EReal := logits (xs m c) (ws m c) (bs m c)

/-- The count of the active logits in every entry of an 8 × 128 block. -/
abbrev counterArr (c : Dev nD) : S8x128.Idx → EReal := fun _ => ((totalCount (xs m c) (ws m c) (bs m c) : ℕ) : EReal)

/-! ## The logits array -/

/-- Entry j of the logits payload at point t is the logits array at row 1024·t + j₀, column j₁. -/
theorem logits_entry (c : Dev nD) (t : Fin cfg0.N) (j : S1024x64.Idx) (i : S32768x64.Idx)
    (h0 : (i 0).val = 1024 * t.val + (j 0).val) (h1 : (i 1).val = (j 1).val) :
    blockLogits m c t j = logitsArr m c i := by
  obtain ⟨p, q, rfl⟩ : ∃ (p : Fin 1024) (q : Fin 64), j = ix2 p q := ⟨j 0, j 1, eq_ix2 j⟩
  rw [blockLogits_at]
  show logit _ _ _ (blockRow (blk t) p) q = logit _ _ _ (i 0) (i 1)
  have e0 : i 0 = blockRow (blk t) p := Fin.ext (by rw [h0]; rfl)
  have e1 : i 1 = q := Fin.ext h1
  rw [e0, e1]

/-- What point t writes back to the logits array is block t of the logits of all rows. -/
theorem flushed_logits (c : Dev nD) (t : Fin cfg0.N) :
    (dats m 0 c).flushed 3 t = ((cfg0.win 3).blk t).view.read (Elt Ideal) (logitsArr m c) := by
  have hi := Blocks.logits_index t
  show (cfg0.win 3).cut (grid0.coords t) ((dats m 0 c).after 3 t) = _
  rw [after0_3, outsAt_eq m c t.val t.isLt]
  funext j
  show blockLogits m c t j = logitsArr m c (((cfg0.win 3).blk t).view.emb j)
  refine logits_entry m c t j _ ?_ ?_
  · show win0_3.index t 0 * 1024 + 1 * (j 0).val = 1024 * t.val + (j 0).val
    rw [hi.1]; omega
  · show win0_3.index t 1 * 64 + 1 * (j 1).val = (j 1).val
    rw [hi.2]; omega

/-- An index of the logits array is in point t's block iff each coordinate is in the block's range. -/
theorem mem_logits_block (t : Fin cfg0.N) (i : S32768x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0_0).slice (win0_3.rect t)).set ↔ _
  rw [View.set_slice_whole, Rect.mem_set_unit]
  exact Iff.rfl

/-- Row r lies in the block of point r / 1024. -/
theorem logits_cover (i : S32768x64.Idx) :
    ∃ t : Fin cfg0.N, (cfg0.win 3).flush t = true ∧ i ∈ ((cfg0.win 3).blk t).view.set := by
  have hi0 : (i 0).val < 32768 := (i 0).isLt
  have hi1 : (i 1).val < 64 := (i 1).isLt
  obtain ⟨t, ht⟩ : ∃ t : Fin cfg0.N, t.val = (i 0).val / 1024 := ⟨⟨(i 0).val / 1024, by rw [N_eq]; omega⟩, rfl⟩
  have hi := Blocks.logits_index t
  refine ⟨t, flush0_3 t, ?_⟩
  rw [mem_logits_block]
  intro a
  match a with
  | ⟨0, _⟩ => show win0_3.index t 0 * 1024 ≤ (i 0).val ∧ (i 0).val < win0_3.index t 0 * 1024 + 1024; rw [hi.1]; omega
  | ⟨1, _⟩ => show win0_3.index t 1 * 64 ≤ (i 1).val ∧ (i 1).val < win0_3.index t 1 * 64 + 64; rw [hi.2]; omega

/-- The logits array after the run. -/
theorem final_logits (c : Dev nD) : (dats m 0 c).arrAt 3 cfg0.N = logitsArr m c :=
  (dats m 0 c).arrAt_eq_of_cover 3 (logitsArr m c) (fun t _ => flushed_logits m c t) logits_cover

/-! ## The counter array -/

theorem running_at_last (x : S32768x4096.Idx → EReal) (W : S4096x64.Idx → EReal) (b : S64.Idx → EReal) :
    ∀ (n : ℕ) (h : n < 32), n = 31 → runningCount x W b n h = totalCount x W b := by
  intro n h hn
  subst hn
  exact runningCount_last x W b

/-- The one write-back of the counter, after the last point, writes the count into every entry. -/
theorem flushed_counter (c : Dev nD) (t : Fin cfg0.N) (hf : (cfg0.win 4).flush t = true) :
    (dats m 0 c).flushed 4 t = ((cfg0.win 4).blk t).view.read (Elt Ideal) (counterArr m c) := by
  have h31 : t.val = 31 := by
    have h1 := (flush0_4 t).mp hf
    have h2 := lt_of_lt_of_eq t.isLt N_eq
    omega
  show (cfg0.win 4).cut (grid0.coords t) ((dats m 0 c).after 4 t) = _
  rw [after0_4, outsAt_eq m c t.val t.isLt]
  funext j
  show ((runningCount _ _ _ t.val _ : ℕ) : EReal) = ((totalCount _ _ _ : ℕ) : EReal)
  rw [running_at_last _ _ _ t.val _ h31]

/-- Every entry of the counter array is in the last point's block. -/
theorem counter_cover (i : S8x128.Idx) :
    ∃ t : Fin cfg0.N, (cfg0.win 4).flush t = true ∧ i ∈ ((cfg0.win 4).blk t).view.set := by
  have hi0 : (i 0).val < 8 := (i 0).isLt
  have hi1 : (i 1).val < 128 := (i 1).isLt
  obtain ⟨t, ht⟩ : ∃ t : Fin cfg0.N, t.val = 31 := ⟨⟨31, by rw [N_eq]; omega⟩, rfl⟩
  have hi := Blocks.counter_index t
  refine ⟨t, (flush0_4 t).mpr (by rw [ht]), ?_⟩
  show i ∈ ((View.whole main_call0_v1_1).slice (win0_4.rect t)).set
  rw [View.set_slice_whole, Rect.mem_set_unit]
  intro a
  match a with
  | ⟨0, _⟩ => show win0_4.index t 0 * 8 ≤ (i 0).val ∧ (i 0).val < win0_4.index t 0 * 8 + 8; rw [hi.1]; omega
  | ⟨1, _⟩ => show win0_4.index t 1 * 128 ≤ (i 1).val ∧ (i 1).val < win0_4.index t 1 * 128 + 128; rw [hi.2]; omega

/-- The counter array after the run. -/
theorem final_counter (c : Dev nD) : (dats m 0 c).arrAt 4 cfg0.N = counterArr m c :=
  (dats m 0 c).arrAt_eq_of_cover 4 (counterArr m c) (flushed_counter m c) counter_cover

/-! ## The density, and the run -/

/-- The host's operations after the call leave the count divided by 2²¹ in the second result. -/
theorem density_eq (c : Dev nD) :
    Pipeline.afterTail₀ cfgs (dats m) 0 (V0 m) [hostOps1] c main_v0_1
      = Host.divf (F := Ideal) (fun _ => ((totalCount (xs m c) (ws m c) (bs m c) : ℕ) : EReal)) (constant S_ .f32 0x4A000000#32) := by
  unfold Pipeline.afterTail₀
  show StableHlo.after hostOps1 _ (Proc.devRef .tc main_v0_1) = _
  after_results
  rw [(Pipeline.withArrays_arr spec0 launch0.win.arr_inj c _ _ 4).trans (final_counter m c)]
  rfl

/-- The kernel's run: the two results at the logits and the density, the three arguments unchanged. -/
theorem run : θ_run defs (onTc (τ := τ) (main (F := Ideal))) ⟨m, fun _ => 0, ρ⟩ fun r => ∀ c : Dev nD,
      r.2.mem ((c.tc : Thread nD τ).loc main_v0_0) = logitsArr m c
      ∧ r.2.mem ((c.tc : Thread nD τ).loc main_v0_1)
          = Host.divf (F := Ideal) (fun _ => ((totalCount (xs m c) (ws m c) (bs m c) : ℕ) : EReal)) (constant S_ .f32 0x4A000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final_logits m c),
     ((h c).2 main_v0_1 (Pipeline.mem_restRefs_of main_v0_1 (by decide) (by decide))).trans (density_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main m ρ)

end Cert.KernelIdeal.Results

end
-- ==== Proof.RefRun.lean ====
/-
  The reference program's run, read back.

  The reference is a straight line of nineteen host operations: the product x·W, the bias broadcast over the rows
  and added, two rectifications max(·, 0), then the count of the entries that differ from zero — a comparison
  with the zero array, the flags widened to 32-bit integers, their sum over both axes from the integer 0 —, that
  integer as a float, and its quotient by 2²¹. Every weakly fair execution of it terminates with the two results
  at these operations composed over the arguments, and with the arguments unchanged.
-/
import proofs.«135159_g15109694947980_cont_week2b_1489_39_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The nineteen operations, in order; the four of the counting function stand where it is called. -/
abbrev ops : List (HloOp τ sig (Elt F)) :=
  [ binary main_arg0 main_arg1 main_v0 ((fun l r => Host.dotGeneral dot_S32768x4096_S4096x64_S32768x64_1_0_0_1_n_n none l r) : (⟨S32768x4096, .f32⟩ : BufTy).Contents (Elt F) → (⟨S4096x64, .f32⟩ : BufTy).Contents (Elt F) → (⟨S32768x64, .f32⟩ : BufTy).Contents (Elt F)),
    unary main_arg2 main_v1 (broadcastInDim S1x64 ![1] bcast_S64_S1x64_1 : (⟨S64, .f32⟩ : BufTy).Contents (Elt F) → (⟨S1x64, .f32⟩ : BufTy).Contents (Elt F)),
    unary main_v1 main_v2 (broadcastInDim S32768x64 ![0, 1] bcast_S1x64_S32768x64_0_1 : (⟨S1x64, .f32⟩ : BufTy).Contents (Elt F) → (⟨S32768x64, .f32⟩ : BufTy).Contents (Elt F)),
    binary main_v0 main_v2 main_v3 (addf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    unary main_cst main_v4 (broadcastInDim S32768x64 ![] bcast_S_S32768x64 : (⟨S_, .f32⟩ : BufTy).Contents (Elt F) → (⟨S32768x64, .f32⟩ : BufTy).Contents (Elt F)),
    binary main_v3 main_v4 main_v5 (maximumf : (⟨S32768x64, .f32⟩ : BufTy).Contents (Elt F) → (⟨S32768x64, .f32⟩ : BufTy).Contents (Elt F) → (⟨S32768x64, .f32⟩ : BufTy).Contents (Elt F)),
    nullary main_cst_0 (constant S_ .f32 0x00000000#32),
    unary main_cst_0 main_v6 (broadcastInDim S32768x64 ![] bcast_S_S32768x64 : (⟨S_, .f32⟩ : BufTy).Contents (Elt F) → (⟨S32768x64, .f32⟩ : BufTy).Contents (Elt F)),
    binary main_v5 main_v6 main_v7 (maximumf : (⟨S32768x64, .f32⟩ : BufTy).Contents (Elt F) → (⟨S32768x64, .f32⟩ : BufTy).Contents (Elt F) → (⟨S32768x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x64, .f32⟩) main_call0_v0) (broadcastInDim S32768x64 ![] bcast_S_S32768x64),
    TRef.binary (TRef.of (T := ⟨S32768x64, .f32⟩) main_v7) (TRef.of (T := ⟨S32768x64, .f32⟩) main_call0_v0) (TRef.of (T := ⟨S32768x64, .i1⟩) main_call0_v1) (cmpf .une),
    TRef.unary (TRef.of (T := ⟨S32768x64, .i1⟩) main_call0_v1) (TRef.of (T := ⟨S32768x64, .i32⟩) main_call0_v2) (extui 32 · natLt_1_32),
    TRef.nullary (TRef.of (T := ⟨S_, .i32⟩) main_call0_c) (constantI S_ 32 0#32),
    TRef.binary (TRef.of (T := ⟨S32768x64, .i32⟩) main_call0_v2) (TRef.of (T := ⟨S_, .i32⟩) main_call0_c) (TRef.of (T := ⟨S_, .i32⟩) main_v8) (fun x v => Host.reduce IntOp.addi x v reducesTo_S32768x64_S_d0_1 h_S_),
    unary main_v8 main_v9 (sitofp .f32 : (⟨S_, .i32⟩ : BufTy).Contents (Elt F) → (⟨S_, .f32⟩ : BufTy).Contents (Elt F)),
    nullary main_cst_1 (constant S_ .f32 0x4A000000#32),
    binary main_v9 main_cst_1 main_v10 (Host.divf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., binary_bufs_sub ..⟩

attribute [local irreducible] Idealize.ShloMosaic.Host.reduce

set_option maxHeartbeats 1900000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = maximumf (maximumf (addf (Host.dotGeneral dot_S32768x4096_S4096x64_S32768x64_1_0_0_1_n_n none (m ((c.tc : Thread nD τ).loc main_arg0)) (m ((c.tc : Thread nD τ).loc main_arg1))) (broadcastInDim S32768x64 ![0, 1] bcast_S1x64_S32768x64_0_1 (broadcastInDim S1x64 ![1] bcast_S64_S1x64_1 (m ((c.tc : Thread nD τ).loc main_arg2))))) (broadcastInDim S32768x64 ![] bcast_S_S32768x64 (constant S_ .f32 0x00000000#32))) (broadcastInDim S32768x64 ![] bcast_S_S32768x64 (constant S_ .f32 0x00000000#32))
      ∧ r.2.mem ((c.tc : Thread nD τ).loc main_v10) = Host.divf (sitofp .f32 (Host.reduce IntOp.addi (extui 32 (cmpf .une (maximumf (maximumf (addf (Host.dotGeneral dot_S32768x4096_S4096x64_S32768x64_1_0_0_1_n_n none (m ((c.tc : Thread nD τ).loc main_arg0)) (m ((c.tc : Thread nD τ).loc main_arg1))) (broadcastInDim S32768x64 ![0, 1] bcast_S1x64_S32768x64_0_1 (broadcastInDim S1x64 ![1] bcast_S64_S1x64_1 (m ((c.tc : Thread nD τ).loc main_arg2))))) (broadcastInDim S32768x64 ![] bcast_S_S32768x64 (constant S_ .f32 0x00000000#32))) (broadcastInDim S32768x64 ![] bcast_S_S32768x64 (constant S_ .f32 0x00000000#32))) (broadcastInDim S32768x64 ![] bcast_S_S32768x64 (constant S_ .f32 0x00000000#32))) natLt_1_32) (constantI S_ 32 0#32) reducesTo_S32768x64_S_d0_1 h_S_)) (constant S_ .f32 0x4A000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (by after_results <;> rfl),
      (h c main_v10).trans (by after_results <;> rfl),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.ReferenceIdeal.RefRun

end
-- ==== Proof.ReluOrder.lean ====
/-
  Order facts about the rectifier on the extended reals.

  The rectified value max(y, 0) is never negative, so rectifying twice is rectifying once, and for a
  rectified value "is positive" and "is not zero" are the same test.
-/
import Mathlib.Data.EReal.Basic

namespace Cert.Router

/-- Rectifying a rectified value changes nothing: max(max(y, 0), 0) = max(y, 0). -/
theorem max_max_zero (y : EReal) : max (max y 0) 0 = max y 0 :=
  max_eq_left (le_max_right y 0)

/-- A rectified value is positive exactly when it is not zero. -/
theorem relu_pos_iff_ne (y : EReal) : 0 < max y 0 ↔ max y 0 ≠ 0 :=
  ⟨fun h => ne_of_gt h, fun h => lt_of_le_of_ne (le_max_right y 0) (Ne.symm h)⟩

end Cert.Router
-- ==== Proof.RefValue.lean ====
/-
  The reference's two results as mathematics over the argument arrays.

  At the ideal values (every float an extended real, every operation exact) the reference's first result,
  max(max(x·W + b, 0), 0) with the bias broadcast over the rows, is the array of the logits
  max(∑ₖ x(r,k)·W(k,c) + b(c), 0): the product at (r, c) is the sum over the contracted axis, the two broadcasts
  read the bias at c and the zero constant everywhere, and rectifying twice is rectifying once.

  Its second result is the quotient by 2²¹ of a count made in 32-bit integers: each logit is compared with zero,
  the one-bit answer widened to a 32-bit word 0 or 1, the 2²¹ words added from 0 in wrapping arithmetic, and the
  sum read as a signed integer and converted to a float. A logit is never negative, so "differs from zero" is
  "is positive"; the words are the natural numbers 0 and 1, their wrapping sum is the word of the number of
  active logits, and that number, at most 2²¹ and so far below 2³¹, is what the word reads as when signed.
-/
import proofs.«135159_g15109694947980_cont_week2b_1489_39_alg».proof.Proof.RefRun
import proofs.«135159_g15109694947980_cont_week2b_1489_39_alg».proof.Proof.ActiveCount
import proofs.«135159_g15109694947980_cont_week2b_1489_39_alg».proof.Proof.ReluOrder
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx
open scoped BigOperators

/-! ## The product at an index -/

/-- The left operand's index at an output index and a contraction index: its row is the output's row … -/
theorem lhs_row (i : S32768x64.Idx) (q : dot_S32768x4096_S4096x64_S32768x64_1_0_0_1_n_n.contr.Idx) :
    (dot_S32768x4096_S4096x64_S32768x64_1_0_0_1_n_n.lhsIdx i q 0).val = (i 0).val := by
  unfold DotDims.lhsIdx
  rw [dif_neg (show ¬(0 : Fin S32768x4096.rank) ∈ dot_S32768x4096_S4096x64_S32768x64_1_0_0_1_n_n.lhsBatch by decide),
    dif_pos (show (0 : Fin S32768x4096.rank) ∈ dot_S32768x4096_S4096x64_S32768x64_1_0_0_1_n_n.lhsNonContracting by decide)]
  rfl

/-- … and its column is the contraction coordinate. -/
theorem lhs_col (i : S32768x64.Idx) (q : dot_S32768x4096_S4096x64_S32768x64_1_0_0_1_n_n.contr.Idx) :
    (dot_S32768x4096_S4096x64_S32768x64_1_0_0_1_n_n.lhsIdx i q 1).val = (q ⟨0, by decide⟩).val :=
  dot_S32768x4096_S4096x64_S32768x64_1_0_0_1_n_n.lhsIdx_val_of_single rfl i q

/-- The right operand's row is the contraction coordinate … -/
theorem rhs_row (i : S32768x64.Idx) (q : dot_S32768x4096_S4096x64_S32768x64_1_0_0_1_n_n.contr.Idx) :
    (dot_S32768x4096_S4096x64_S32768x64_1_0_0_1_n_n.rhsIdx i q 0).val = (q ⟨0, by decide⟩).val :=
  dot_S32768x4096_S4096x64_S32768x64_1_0_0_1_n_n.rhsIdx_val_of_single rfl i q

/-- … and its column is the output's column. -/
theorem rhs_col (i : S32768x64.Idx) (q : dot_S32768x4096_S4096x64_S32768x64_1_0_0_1_n_n.contr.Idx) :
    (dot_S32768x4096_S4096x64_S32768x64_1_0_0_1_n_n.rhsIdx i q 1).val = (i 1).val := by
  unfold DotDims.rhsIdx
  rw [dif_neg (show ¬(1 : Fin S4096x64.rank) ∈ dot_S32768x4096_S4096x64_S32768x64_1_0_0_1_n_n.rhsBatch by decide),
    dif_pos (show (1 : Fin S4096x64.rank) ∈ dot_S32768x4096_S4096x64_S32768x64_1_0_0_1_n_n.rhsNonContracting by decide)]
  rfl

/-- The product x·W at (r, c) is ∑ₖ x(r,k)·W(k,c): the contraction index set is Fin 4096 through its one
    coordinate, and at coordinate k the operands are read at (r, k) and (k, c). -/
theorem dot_apply (x : FVec Ideal S32768x4096 .f32) (W : FVec Ideal S4096x64 .f32) (r : Fin 32768) (c : Fin 64) :
    Host.dotGeneral (F := Ideal) dot_S32768x4096_S4096x64_S32768x64_1_0_0_1_n_n none x W (ix2 r c) = ∑ k : Fin 4096, x (ix2 r k) * W (ix2 k c) := by
  simp only [Host.dotGeneral]
  rw [Ideal.dotGeneral_apply, ← Equiv.sum_comp (contrEquiv1 dot_S32768x4096_S4096x64_S32768x64_1_0_0_1_n_n 4096 rfl rfl).symm]
  refine Finset.sum_congr rfl fun k _ => ?_
  have hk := contrEquiv1_symm_val dot_S32768x4096_S4096x64_S32768x64_1_0_0_1_n_n 4096 rfl rfl k
  have el : dot_S32768x4096_S4096x64_S32768x64_1_0_0_1_n_n.lhsIdx (ix2 r c) ((contrEquiv1 dot_S32768x4096_S4096x64_S32768x64_1_0_0_1_n_n 4096 rfl rfl).symm k) = ix2 r k :=
    funext fun a => Fin.ext (by
      match a with
      | ⟨0, _⟩ => exact lhs_row _ _
      | ⟨1, _⟩ => exact (lhs_col _ _).trans hk)
  have er : dot_S32768x4096_S4096x64_S32768x64_1_0_0_1_n_n.rhsIdx (ix2 r c) ((contrEquiv1 dot_S32768x4096_S4096x64_S32768x64_1_0_0_1_n_n 4096 rfl rfl).symm k) = ix2 k c :=
    funext fun a => Fin.ext (by
      match a with
      | ⟨0, _⟩ => exact (rhs_row _ _).trans hk
      | ⟨1, _⟩ => exact rhs_col _ _)
  rw [el, er]

/-! ## The two broadcasts at an index -/

/-- The bias, broadcast to one row and then over the 32768 rows, read at (r, c) is b(c). -/
theorem bias_apply (b : FVec Ideal S64 .f32) (r : Fin 32768) (c : Fin 64) :
    broadcastInDim S32768x64 ![0, 1] bcast_S1x64_S32768x64_0_1 (broadcastInDim S1x64 ![1] bcast_S64_S1x64_1 b) (ix2 r c)
      = b (ix1 c) := by
  refine (broadcastInDim_apply _ bcast_S1x64_S32768x64_0_1 _ (ix2 r c) (ix2 (0 : Fin 1) c) (fun a => ?_)).trans ?_
  · match a with
    | ⟨0, _⟩ => show 0 = if (1 : Nat) = 1 then 0 else r.val; rw [if_pos rfl]
    | ⟨1, _⟩ => show c.val = if (64 : Nat) = 1 then 0 else c.val; rw [if_neg (by decide)]
  · exact broadcastInDim_apply _ bcast_S64_S1x64_1 b (ix2 (0 : Fin 1) c) (ix1 c) (fun a => match a with
      | ⟨0, _⟩ => by show c.val = if (64 : Nat) = 1 then 0 else c.val; rw [if_neg (by decide)])

/-- The zero constant broadcast over the array is 0 everywhere. -/
theorem zeros_apply (i : S32768x64.Idx) :
    broadcastInDim S32768x64 ![] bcast_S_S32768x64 (constant (F := Ideal) S_ .f32 0x00000000#32) i = (0 : EReal) := by
  refine (broadcastInDim_apply _ bcast_S_S32768x64 _ i ix0 (fun a => a.elim0)).trans ?_
  rw [constant_apply]
  exact Ideal.ofBits_zero_f32

/-! ## The first result: the logits -/

/-- The reference's first result is the array of the logits. -/
theorem refLogits_eq (x : FVec Ideal S32768x4096 .f32) (W : FVec Ideal S4096x64 .f32) (b : FVec Ideal S64 .f32) :
    (maximumf (maximumf (addf (Host.dotGeneral dot_S32768x4096_S4096x64_S32768x64_1_0_0_1_n_n none x W) (broadcastInDim S32768x64 ![0, 1] bcast_S1x64_S32768x64_0_1 (broadcastInDim S1x64 ![1] bcast_S64_S1x64_1 b))) (broadcastInDim S32768x64 ![] bcast_S_S32768x64 (constant S_ .f32 0x00000000#32))) (broadcastInDim S32768x64 ![] bcast_S_S32768x64 (constant S_ .f32 0x00000000#32)) : FVec Ideal S32768x64 .f32)
      = Cert.Router.logits x W b := by
  funext i
  obtain ⟨r, c, rfl⟩ : ∃ (r : Fin 32768) (c : Fin 64), i = ix2 r c := ⟨i 0, i 1, eq_ix2 i⟩
  rw [maximumf_apply, maximumf_apply, addf_apply, dot_apply, bias_apply, zeros_apply]
  exact Cert.Router.max_max_zero _

attribute [local irreducible] Idealize.ShloMosaic.Host.reduce

/-! ## The second result: the count of the active logits over 2²¹ -/

/-- Converting a signed integer word to a float at the ideal values gives the integer exactly. -/
theorem sitofp_word {w : Nat} (v : BitVec w) : FloatOps.sitofp (F := Ideal) .f32 v = ((v.toInt : ℝ) : EReal) := rfl

/-- Each flag — "the logit differs from zero", widened to 32 bits — is the word of the number 0 or 1 that says
    whether the logit is active. -/
theorem flags_eq (x : FVec Ideal S32768x4096 .f32) (W : FVec Ideal S4096x64 .f32) (b : FVec Ideal S64 .f32) :
    (extui 32 (cmpf .une (maximumf (maximumf (addf (Host.dotGeneral dot_S32768x4096_S4096x64_S32768x64_1_0_0_1_n_n none x W) (broadcastInDim S32768x64 ![0, 1] bcast_S1x64_S32768x64_0_1 (broadcastInDim S1x64 ![1] bcast_S64_S1x64_1 b))) (broadcastInDim S32768x64 ![] bcast_S_S32768x64 (constant S_ .f32 0x00000000#32))) (broadcastInDim S32768x64 ![] bcast_S_S32768x64 (constant S_ .f32 0x00000000#32))) (broadcastInDim S32768x64 ![] bcast_S_S32768x64 (constant S_ .f32 0x00000000#32))) natLt_1_32 : IVec S32768x64 32)
      = fun i : S32768x64.Idx => ((Cert.Router.active x W b (i 0) (i 1) : ℕ) : BitVec 32) := by
  funext i
  obtain ⟨r, c, rfl⟩ : ∃ (r : Fin 32768) (c : Fin 64), i = ix2 r c := ⟨i 0, i 1, eq_ix2 i⟩
  rw [extui_apply, cmpf_apply, refLogits_eq, zeros_apply, Ideal.cmpf_def]
  show (BitVec.ofBool (decide (Cert.Router.logit x W b r c ≠ 0))).setWidth 32
    = ((Cert.Router.active x W b r c : ℕ) : BitVec 32)
  rw [Cert.CountWords.flag_word, Cert.Router.active_eq_ne]

/-- The integer count: the wrapping sum of the 2²¹ flags from 0 is the word of the number of active logits. The
    result has rank 0, so every index of the array contributes to its one element. -/
theorem count_word (x : FVec Ideal S32768x4096 .f32) (W : FVec Ideal S4096x64 .f32) (b : FVec Ideal S64 .f32) (j : S_.Idx) :
    (Host.reduce IntOp.addi (extui 32 (cmpf .une (maximumf (maximumf (addf (Host.dotGeneral dot_S32768x4096_S4096x64_S32768x64_1_0_0_1_n_n none x W) (broadcastInDim S32768x64 ![0, 1] bcast_S1x64_S32768x64_0_1 (broadcastInDim S1x64 ![1] bcast_S64_S1x64_1 b))) (broadcastInDim S32768x64 ![] bcast_S_S32768x64 (constant S_ .f32 0x00000000#32))) (broadcastInDim S32768x64 ![] bcast_S_S32768x64 (constant S_ .f32 0x00000000#32))) (broadcastInDim S32768x64 ![] bcast_S_S32768x64 (constant S_ .f32 0x00000000#32))) natLt_1_32) (constantI S_ 32 0#32) reducesTo_S32768x64_S_d0_1 h_S_ : IVec S_ 32) j
      = ((Cert.Router.totalCount x W b : ℕ) : BitVec 32) := by
  rw [Host.reduce_eq_fold, flags_eq, Finset.filter_true_of_mem (fun i _ => funext fun a => a.elim0)]
  refine (Cert.CountWords.fold_addi_natCast Finset.univ fun i : S32768x64.Idx => Cert.Router.active x W b (i 0) (i 1)).trans ?_
  rw [sum_idx2]
  rfl

/-- The reference's second result is the number of active logits, as a float, over 2²¹. -/
theorem refDensity_eq (x : FVec Ideal S32768x4096 .f32) (W : FVec Ideal S4096x64 .f32) (b : FVec Ideal S64 .f32) :
    (Host.divf (sitofp .f32 (Host.reduce IntOp.addi (extui 32 (cmpf .une (maximumf (maximumf (addf (Host.dotGeneral dot_S32768x4096_S4096x64_S32768x64_1_0_0_1_n_n none x W) (broadcastInDim S32768x64 ![0, 1] bcast_S1x64_S32768x64_0_1 (broadcastInDim S1x64 ![1] bcast_S64_S1x64_1 b))) (broadcastInDim S32768x64 ![] bcast_S_S32768x64 (constant S_ .f32 0x00000000#32))) (broadcastInDim S32768x64 ![] bcast_S_S32768x64 (constant S_ .f32 0x00000000#32))) (broadcastInDim S32768x64 ![] bcast_S_S32768x64 (constant S_ .f32 0x00000000#32))) natLt_1_32) (constantI S_ 32 0#32) reducesTo_S32768x64_S_d0_1 h_S_)) (constant S_ .f32 0x4A000000#32) : FVec Ideal S_ .f32)
      = Host.divf (F := Ideal) (fun _ => ((Cert.Router.totalCount x W b : ℕ) : EReal)) (constant S_ .f32 0x4A000000#32) := by
  refine congrArg (fun v => Host.divf (F := Ideal) v (constant S_ .f32 0x4A000000#32)) ?_
  funext j
  rw [sitofp_apply, count_word, sitofp_word,
    Cert.CountWords.toInt_natCast_of_lt _ (lt_of_le_of_lt (Cert.Router.totalCount_le x W b) (by norm_num)),
    Int.cast_natCast]
  rfl

end Cert.ReferenceIdeal.RefValue

end
-- ==== Proof.lean ====
/-
  A router: logits = max (x·W + b, 0) for a token matrix x [32768, 4096], a weight matrix W [4096, 64] and a bias
  b [64], together with the activation density, the fraction of the 2²¹ logits that are not zero.

  The kernel streams the tokens through 32 blocks of 1024 rows. At each block it computes the block's logits,
  writes them out, counts the positive ones and adds that count to a counter block it keeps across the grid
  (zeroed at the first block); after the call the host divides one entry of the counter by 2²¹. The reference
  computes the product of the whole arrays, rectifies (twice: the second changes nothing), counts the entries that
  differ from zero in 32-bit integers, converts the count to a float and divides it by 2²¹.

  Read over the extended reals the two programs compute the same two values. The logits agree entry by entry: the
  product of a row block with W is the same sum over the contracted axis as the product of the whole matrix, at the
  block's rows. The counts agree because a rectified value is never negative, so "is positive" and "is not zero"
  select the same entries; because the rows split into the 32 blocks, so the count of all rows is the sum of the
  blocks' counts in any order; and because the count is at most 2²¹, so the 32-bit sum does not wrap and reads as
  the same number that the sum of 0.0 and 1.0 values gives. Both quotients divide that number by the same float.
  None of this needs the inputs to be finite.

  The three frame claims are the generated frames of the two kernel programs and the reference's run with its
  results dropped; the idealization rewrote no operation, so there is nothing to preserve.
-/
import proofs.«135159_g15109694947980_cont_week2b_1489_39_alg».proof.Defs
import proofs.«135159_g15109694947980_cont_week2b_1489_39_alg».proof.Proof.Gen.Kernel
import proofs.«135159_g15109694947980_cont_week2b_1489_39_alg».proof.Proof.Gen.Kernel.Frame
import proofs.«135159_g15109694947980_cont_week2b_1489_39_alg».proof.Proof.Gen.KernelIdeal
import proofs.«135159_g15109694947980_cont_week2b_1489_39_alg».proof.Proof.Gen.KernelIdeal.Frame
import proofs.«135159_g15109694947980_cont_week2b_1489_39_alg».proof.Proof.Gen.ReferenceIdeal
import proofs.«135159_g15109694947980_cont_week2b_1489_39_alg».proof.Proof.Gen.Pre_finite_inputs
import proofs.«135159_g15109694947980_cont_week2b_1489_39_alg».proof.Proof.KernelResults
import proofs.«135159_g15109694947980_cont_week2b_1489_39_alg».proof.Proof.RefValue
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference's run, its two results dropped. -/
theorem frame_reference : Cert.frame_ReferenceIdeal :=
  fun m ρ _ => (θ_run Cert.ReferenceIdeal.defs _ _).mono (fun _ h c => (h c).2.2)
    (Cert.ReferenceIdeal.RefRun.run (F := Ideal) m ρ)

/-- Both programs end with the logits of the arguments in the first result and the number of active logits over
    2²¹ in the second. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨?_, ?_, (h c).2.2⟩)
    (Cert.ReferenceIdeal.RefRun.run (F := Ideal) m' ρ')
  · have h1 := (h c).1
    rw [Cert.ReferenceIdeal.RefValue.refLogits_eq, (hagree c).1, (hagree c).2.1, (hagree c).2.2] at h1
    exact h1
  · have h2 := (h c).2.1
    rw [Cert.ReferenceIdeal.RefValue.refDensity_eq, (hagree c).1, (hagree c).2.1, (hagree c).2.2] at h2
    exact h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
